-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S3x4194304 : Shape := ⟨2, ![3, 4194304]⟩
abbrev S3x8192x512 : Shape := ⟨3, ![3, 8192, 512]⟩
abbrev S16x8192x512 : Shape := ⟨3, ![16, 8192, 512]⟩
abbrev S3x256x512 : Shape := ⟨3, ![3, 256, 512]⟩
abbrev S16x256x512 : Shape := ⟨3, ![16, 256, 512]⟩
abbrev S1x256x512 : Shape := ⟨3, ![1, 256, 512]⟩
abbrev S256x512 : Shape := ⟨2, ![256, 512]⟩
abbrev S16x4194304 : Shape := ⟨2, ![16, 4194304]⟩
abbrev S4194304x16 : Shape := ⟨2, ![4194304, 16]⟩
abbrev S4194304x4x4 : Shape := ⟨3, ![4194304, 4, 4]⟩

abbrev nBuf : Space → Nat
  | .hbm => 7
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S3x4194304, .f32⟩
  | .hbm, ⟨2, _⟩ => ⟨S3x8192x512, .f32⟩
  | .hbm, ⟨3, _⟩ => ⟨S16x8192x512, .f32⟩
  | .hbm, ⟨4, _⟩ => ⟨S16x4194304, .f32⟩
  | .hbm, ⟨5, _⟩ => ⟨S4194304x16, .f32⟩
  | .hbm, ⟨6, _⟩ => ⟨S4194304x4x4, .f32⟩
  | .local _ .vmem, ⟨0, _⟩ => ⟨S3x256x512, .f32⟩
  | .local _ .vmem, ⟨1, _⟩ => ⟨S3x256x512, .f32⟩
  | .local _ .vmem, ⟨2, _⟩ => ⟨S16x256x512, .f32⟩
  | .local _ .vmem, ⟨3, _⟩ => ⟨S16x256x512, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4194304x3_S3x4194304_1_0 : S4194304x3.Transposes [1, 0] S3x4194304
  shapeCasts_S3x4194304_S3x8192x512 : S3x4194304.ShapeCasts S3x8192x512
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  inb_S3x256x512_S1x256x512_1_0_0 : ∀ a, (![1, 0, 0] : Fin 3 → Nat) a + S1x256x512.size a ≤ S3x256x512.size a
  inb_S3x256x512_S1x256x512_2_0_0 : ∀ a, (![2, 0, 0] : Fin 3 → Nat) a + S1x256x512.size a ≤ S3x256x512.size a
  inb_S16x256x512_S1x256x512_0_0_0 : ∀ a, (![0, 0, 0] : Fin 3 → Nat) a + S1x256x512.size a ≤ S16x256x512.size a
  shapeCasts_S256x512_S1x256x512 : S256x512.ShapeCasts S1x256x512
  inb_S16x256x512_S1x256x512_1_0_0 : ∀ a, (![1, 0, 0] : Fin 3 → Nat) a + S1x256x512.size a ≤ S16x256x512.size a
  inb_S16x256x512_S1x256x512_2_0_0 : ∀ a, (![2, 0, 0] : Fin 3 → Nat) a + S1x256x512.size a ≤ S16x256x512.size a
  inb_S16x256x512_S1x256x512_3_0_0 : ∀ a, (![3, 0, 0] : Fin 3 → Nat) a + S1x256x512.size a ≤ S16x256x512.size a
  inb_S16x256x512_S1x256x512_4_0_0 : ∀ a, (![4, 0, 0] : Fin 3 → Nat) a + S1x256x512.size a ≤ S16x256x512.size a
  inb_S16x256x512_S1x256x512_5_0_0 : ∀ a, (![5, 0, 0] : Fin 3 → Nat) a + S1x256x512.size a ≤ S16x256x512.size a
  inb_S16x256x512_S1x256x512_6_0_0 : ∀ a, (![6, 0, 0] : Fin 3 → Nat) a + S1x256x512.size a ≤ S16x256x512.size a
  inb_S16x256x512_S1x256x512_7_0_0 : ∀ a, (![7, 0, 0] : Fin 3 → Nat) a + S1x256x512.size a ≤ S16x256x512.size a
  inb_S16x256x512_S1x256x512_8_0_0 : ∀ a, (![8, 0, 0] : Fin 3 → Nat) a + S1x256x512.size a ≤ S16x256x512.size a
  inb_S16x256x512_S1x256x512_9_0_0 : ∀ a, (![9, 0, 0] : Fin 3 → Nat) a + S1x256x512.size a ≤ S16x256x512.size a
  inb_S16x256x512_S1x256x512_10_0_0 : ∀ a, (![10, 0, 0] : Fin 3 → Nat) a + S1x256x512.size a ≤ S16x256x512.size a
  inb_S16x256x512_S1x256x512_11_0_0 : ∀ a, (![11, 0, 0] : Fin 3 → Nat) a + S1x256x512.size a ≤ S16x256x512.size a
  inb_S16x256x512_S1x256x512_12_0_0 : ∀ a, (![12, 0, 0] : Fin 3 → Nat) a + S1x256x512.size a ≤ S16x256x512.size a
  inb_S16x256x512_S1x256x512_13_0_0 : ∀ a, (![13, 0, 0] : Fin 3 → Nat) a + S1x256x512.size a ≤ S16x256x512.size a
  inb_S16x256x512_S1x256x512_14_0_0 : ∀ a, (![14, 0, 0] : Fin 3 → Nat) a + S1x256x512.size a ≤ S16x256x512.size a
  inb_S16x256x512_S1x256x512_15_0_0 : ∀ a, (![15, 0, 0] : Fin 3 → Nat) a + S1x256x512.size a ≤ S16x256x512.size a
  shapeCasts_S16x8192x512_S16x4194304 : S16x8192x512.ShapeCasts S16x4194304
  transposes_S16x4194304_S4194304x16_1_0 : S16x4194304.Transposes [1, 0] S4194304x16
  shapeCasts_S4194304x16_S4194304x4x4 : S4194304x16.ShapeCasts S4194304x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x256x512.size a ≤ S3x8192x512.size a
  hwx0_0 : ∀ i : grid0.Coords, EltTy.bits .f32 = 32 ∨ (Rect.block (s := S3x8192x512) S3x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x512.size a ≤ S16x8192x512.size a
  hwx0_1 : ∀ i : grid0.Coords, EltTy.bits .f32 = 32 ∨ (Rect.block (s := S16x8192x512) S16x256x512.size (cc0_transform_1 i) (hinb0_1 i)).WholeWords (EltTy.packing .f32)

variable [Facts₀]

abbrev win0_0 : Pipeline.Window sig grid0 :=
  Pipeline.Window.ofSpec (Memref.whole main_v1) S3x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x256x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩
abbrev S4194304x4 : Shape := ⟨2, ![4194304, 4]⟩
abbrev S4194304x1x4 : Shape := ⟨3, ![4194304, 1, 4]⟩
abbrev S4194304x4x4 : Shape := ⟨3, ![4194304, 4, 4]⟩

abbrev nBuf : Space → Nat
  | .hbm => 87
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x1, .f32⟩
  | .hbm, ⟨2, _⟩ => ⟨S4194304, .f32⟩
  | .hbm, ⟨3, _⟩ => ⟨S_, .f32⟩
  | .hbm, ⟨4, _⟩ => ⟨S4194304, .f32⟩
  | .hbm, ⟨5, _⟩ => ⟨S4194304, .f32⟩
  | .hbm, ⟨6, _⟩ => ⟨S4194304x1, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S_, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S4194304, .f32⟩
  | .hbm, ⟨39, _⟩ => ⟨S_, .f32⟩
  | .hbm, ⟨40, _⟩ => ⟨S4194304, .f32⟩
  | .hbm, ⟨41, _⟩ => ⟨S4194304, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S_, .f32⟩
  | .hbm, ⟨59, _⟩ => ⟨S4194304, .f32⟩
  | .hbm, ⟨60, _⟩ => ⟨S_, .f32⟩
  | .hbm, ⟨61, _⟩ => ⟨S4194304, .f32⟩
  | .hbm, ⟨62, _⟩ => ⟨S4194304x1, .f32⟩
  | .hbm, ⟨63, _⟩ => ⟨S4194304x1, .f32⟩
  | .hbm, ⟨64, _⟩ => ⟨S4194304x1, .f32⟩
  | .hbm, ⟨65, _⟩ => ⟨S4194304x1, .f32⟩
  | .hbm, ⟨66, _⟩ => ⟨S4194304x4, .f32⟩
  | .hbm, ⟨67, _⟩ => ⟨S4194304x1, .f32⟩
  | .hbm, ⟨68, _⟩ => ⟨S4194304x1, .f32⟩
  | .hbm, ⟨69, _⟩ => ⟨S4194304x1, .f32⟩
  | .hbm, ⟨70, _⟩ => ⟨S4194304x1, .f32⟩
  | .hbm, ⟨71, _⟩ => ⟨S4194304x4, .f32⟩
  | .hbm, ⟨72, _⟩ => ⟨S4194304x1, .f32⟩
  | .hbm, ⟨73, _⟩ => ⟨S4194304x1, .f32⟩
  | .hbm, ⟨74, _⟩ => ⟨S4194304x1, .f32⟩
  | .hbm, ⟨75, _⟩ => ⟨S4194304x1, .f32⟩
  | .hbm, ⟨76, _⟩ => ⟨S4194304x4, .f32⟩
  | .hbm, ⟨77, _⟩ => ⟨S4194304x1, .f32⟩
  | .hbm, ⟨78, _⟩ => ⟨S4194304x1, .f32⟩
  | .hbm, ⟨79, _⟩ => ⟨S4194304x1, .f32⟩
  | .hbm, ⟨80, _⟩ => ⟨S4194304x1, .f32⟩
  | .hbm, ⟨81, _⟩ => ⟨S4194304x4, .f32⟩
  | .hbm, ⟨82, _⟩ => ⟨S4194304x1x4, .f32⟩
  | .hbm, ⟨83, _⟩ => ⟨S4194304x1x4, .f32⟩
  | .hbm, ⟨84, _⟩ => ⟨S4194304x1x4, .f32⟩
  | .hbm, ⟨85, _⟩ => ⟨S4194304x1x4, .f32⟩
  | .hbm, ⟨86, _⟩ => ⟨S4194304x4x4, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_9 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]

class Facts₀ : Prop where
  slices_S4194304x3_S4194304x1_0_2 : S4194304x3.Slices ![0, 2] S4194304x1
  shapeCasts_S4194304x1_S4194304 : S4194304x1.ShapeCasts S4194304
  bcast_S_S4194304 : S_.BroadcastsInDim S4194304 (![] : Fin 0 → Fin S4194304.rank)
  slices_S4194304x3_S4194304x1_0_0 : S4194304x3.Slices ![0, 0] S4194304x1
  slices_S4194304x3_S4194304x1_0_1 : S4194304x3.Slices ![0, 1] S4194304x1
  bcast_S4194304_S4194304x1_0 : S4194304.BroadcastsInDim S4194304x1 (![0] : Fin 1 → Fin S4194304x1.rank)
  concatenates_S4194304x1_S4194304x1_S4194304x1_S4194304x1_S4194304x4_d1 : Shape.Concatenates [S4194304x1, S4194304x1, S4194304x1, S4194304x1] S4194304x4 1
  bcast_S4194304x4_S4194304x1x4_0_2 : S4194304x4.BroadcastsInDim S4194304x1x4 (![0, 2] : Fin 2 → Fin S4194304x1x4.rank)
  concatenates_S4194304x1x4_S4194304x1x4_S4194304x1x4_S4194304x1x4_S4194304x4x4_d1 : Shape.Concatenates [S4194304x1x4, S4194304x1x4, S4194304x1x4, S4194304x1x4] S4194304x4x4 1

variable [Facts₀]

class Facts : Prop extends Facts₀ where

variable [Facts]
-- ==== Proof.Spec.lean ====
/-
  The exponential map of the planar rigid motions inside SE(3), entry by entry, on the extended reals.

  A row of the input is a twist (x, y, ψ): a translation (x, y) in the plane and a rotation rate ψ about the
  vertical axis. With ω = ψ · s (s the rotation scale), θ² = ω², θ = √θ² and the damped coefficients
      A = sin θ / (θ + ε),   B = (1 − cos θ) / (θ² + ε),   C = (1 − A) / (θ² + ε),
  the 4 × 4 matrix of the motion, written row after row, is
      [ 1 − θ²B    −ωA       0    (1 − θ²C)·x + (−ωB)·y ]
      [ ωA         1 − θ²B   0    (ωB)·x + (1 − θ²C)·y  ]
      [ 0          0         1    0                     ]
      [ 0          0         0    1                     ]
  (the translation coordinates enter multiplied by the translation scale, which is 1). Every operation is the
  extended reals' own, so the definitions below make sense, and are used, at the infinities too: nothing in
  this file needs an input to be finite.
-/
import Idealize.ShloMosaic.PureOps.Ideal
import Idealize.ShloMosaic.PureOps.Ideal.Laws
import Idealize.ShloMosaic.Lib.ValueIdx

noncomputable section

namespace Cert.Se3Exp

open Idealize.ShloMosaic Idealize.ShloMosaic.ValueIdx

/-! ## The four float words the two programs share, as the extended reals they denote -/

/-- The rotation scale (the float nearest 0.1). -/
def rotScale : EReal := Ideal.ofBits .f32 0x3DCCCCCD#32
/-- The damping term ε (the float nearest 1e-5). -/
def eps : EReal := Ideal.ofBits .f32 0x3727C5AC#32
/-- The float 1.0. -/
def one : EReal := Ideal.ofBits .f32 0x3F800000#32
/-- The float 0.0. -/
def zero : EReal := Ideal.ofBits .f32 0x00000000#32

/-- The zero word denotes 0, so subtracting from it is negation — on every extended real, the infinities included. -/
theorem zero_sub_eq_neg (a : EReal) : zero - a = -a := by
  unfold zero
  rw [Ideal.ofBits_zero_f32, zero_sub]

/-! ## The scalar functions of one twist -/

/-- ω = ψ · s. -/
def omega (psi : EReal) : EReal := psi * rotScale
/-- θ² = ω · ω. -/
def thetaSq (psi : EReal) : EReal := omega psi * omega psi
/-- θ = √θ². -/
def theta (psi : EReal) : EReal := Ideal.sqrt (thetaSq psi)
/-- A = sin θ / (θ + ε). -/
def coefA (psi : EReal) : EReal := Ideal.div (Ideal.sin (theta psi)) (theta psi + eps)
/-- B = (1 − cos θ) / (θ² + ε). -/
def coefB (psi : EReal) : EReal := Ideal.div (one - Ideal.cos (theta psi)) (thetaSq psi + eps)
/-- C = (1 − A) / (θ² + ε). -/
def coefC (psi : EReal) : EReal := Ideal.div (one - coefA psi) (thetaSq psi + eps)

/-- The rotation block's diagonal, 1 − θ²B. -/
def rotDiag (psi : EReal) : EReal := one - thetaSq psi * coefB psi
/-- The rotation block's lower off-diagonal entry, ωA. -/
def rotLow (psi : EReal) : EReal := omega psi * coefA psi
/-- The rotation block's upper off-diagonal entry, (−ω)A. -/
def rotUp (psi : EReal) : EReal := -(omega psi) * coefA psi
/-- The translation block's diagonal, 1 − θ²C. -/
def trDiag (psi : EReal) : EReal := one - thetaSq psi * coefC psi
/-- The translation block's lower off-diagonal entry, ωB. -/
def trLow (psi : EReal) : EReal := omega psi * coefB psi
/-- The translation block's upper off-diagonal entry, (−ω)B. -/
def trUp (psi : EReal) : EReal := -(omega psi) * coefB psi
/-- The first translation coordinate of the motion. -/
def transX (x y psi : EReal) : EReal := trDiag psi * (x * one) + trUp psi * (y * one)
/-- The second translation coordinate of the motion. -/
def transY (x y psi : EReal) : EReal := trLow psi * (x * one) + trDiag psi * (y * one)

/-- Entry `p` of the matrix flattened row after row (`p = 4·row + column`), of the twist (x, y, ψ). -/
def entry (p : Nat) (x y psi : EReal) : EReal :=
  match p with
  | 0 => rotDiag psi
  | 1 => rotUp psi
  | 3 => transX x y psi
  | 4 => rotLow psi
  | 5 => rotDiag psi
  | 7 => transY x y psi
  | 10 => one
  | 15 => one
  | _ => zero

/-! ## The arrays -/

/-- The sixteen entries as sixteen planes over the rows laid out 8192 × 512, of the three components laid out the
    same way. -/
def planes (u : (⟨3, ![3, 8192, 512]⟩ : Shape).Idx → EReal) : (⟨3, ![16, 8192, 512]⟩ : Shape).Idx → EReal :=
  fun j => entry (j 0).val (u (ix3 (0 : Fin 3) (j 1) (j 2))) (u (ix3 (1 : Fin 3) (j 1) (j 2))) (u (ix3 (2 : Fin 3) (j 1) (j 2)))

/-- The matrices of all the rows: entry (r, c) of row `b`'s matrix, of the twist in row `b` of the input. -/
def motions (uv : (⟨2, ![4194304, 3]⟩ : Shape).Idx → EReal) : (⟨3, ![4194304, 4, 4]⟩ : Shape).Idx → EReal :=
  fun i => entry (4 * (i 1).val + (i 2).val) (uv (ix2 (i 0) (0 : Fin 3))) (uv (ix2 (i 0) (1 : Fin 3))) (uv (ix2 (i 0) (2 : Fin 3)))

end Cert.Se3Exp

end
-- ==== Proof.KernelBlock.lean ====
/-
  One grid point of the kernel.

  At a grid point the body reads its input block — three planes of 256 × 512 entries, the components x, y, ψ of
  131072 consecutive twists — and writes sixteen planes of the same extent, one store each: plane `p` holds, at
  every position, entry `p` of the motion of the twist at that position. This file says so as ONE function of the
  input block, index by index (`block`), by reading every stored plane at an index: each stored plane is a chain
  of entry-by-entry operations on planes of the input (so it is the scalar function of the same name applied at
  every position), viewed as a [256, 512] array and back as a [1, 256, 512] one on the way.
-/
import proofs.«110850_j66649302499845_2_alg».proof.Proof.Gen.KernelIdeal.Frame
import proofs.«110850_j66649302499845_2_alg».proof.Proof.Spec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Se3Exp

/-- What a grid point leaves in the output block, of its input block: plane `p` at position (r, l) is entry `p` of
    the motion of the twist whose components sit at position (r, l) of the three input planes. -/
def block (x0 : Vec Ideal S3x256x512 .f32) : Vec Ideal S16x256x512 .f32 :=
  fun y => entry (y 0).val (x0 (ix3 (0 : Fin 3) (y 1) (y 2))) (x0 (ix3 (1 : Fin 3) (y 1) (y 2))) (x0 (ix3 (2 : Fin 3) (y 1) (y 2)))

/-! ## A plane viewed flat and back -/

/-- A scalar function applied at every position of one plane viewed as [256, 512], the result viewed back as
    [1, 256, 512]: the function applied at every position of the plane. -/
theorem map1_plane (g : EReal → EReal) (z : Vec Ideal S1x256x512 .f32)
    (h : S1x256x512.ShapeCasts S256x512) (h' : S256x512.ShapeCasts S1x256x512) :
    shapeCast S1x256x512 (fun y => g (shapeCast S256x512 z h y)) h' = fun x => g (z x) := by
  funext x
  show g (shapeCast S1x256x512 (shapeCast S256x512 z h) h' x) = g (z x)
  rw [shapeCast_shapeCast]

/-- The same for a function of three planes. -/
theorem map3_plane (g : EReal → EReal → EReal → EReal) (z0 z1 z2 : Vec Ideal S1x256x512 .f32)
    (h : S1x256x512.ShapeCasts S256x512) (h' : S256x512.ShapeCasts S1x256x512) :
    shapeCast S1x256x512 (fun y => g (shapeCast S256x512 z0 h y) (shapeCast S256x512 z1 h y) (shapeCast S256x512 z2 h y)) h'
      = fun x => g (z0 x) (z1 x) (z2 x) := by
  funext x
  show g (shapeCast S1x256x512 (shapeCast S256x512 z0 h) h' x) (shapeCast S1x256x512 (shapeCast S256x512 z1 h) h' x)
    (shapeCast S1x256x512 (shapeCast S256x512 z2 h) h' x) = g (z0 x) (z1 x) (z2 x)
  rw [shapeCast_shapeCast, shapeCast_shapeCast, shapeCast_shapeCast]

/-! ## The stored planes, as scalar functions at every position -/

theorem stored_rotDiag (z : Vec Ideal S1x256x512 .f32) :
    k0_pay20 (k0_pay9 (F := Ideal) z) = fun x => rotDiag (z x) :=
  map1_plane rotDiag z _ _

theorem stored_rotDiag' (z : Vec Ideal S1x256x512 .f32) :
    k0_pay25 (k0_pay9 (F := Ideal) z) = fun x => rotDiag (z x) :=
  map1_plane rotDiag z _ _

theorem stored_rotLow (z : Vec Ideal S1x256x512 .f32) :
    k0_pay24 (k0_pay11 (F := Ideal) z) = fun x => rotLow (z x) :=
  map1_plane rotLow z _ _

theorem stored_rotUp (z : Vec Ideal S1x256x512 .f32) :
    k0_pay21 (k0_pay10 (F := Ideal) z) = fun x => rotUp (z x) := by
  refine (map1_plane (fun p => (zero - omega p) * coefA p) z _ _).trans ?_
  funext x
  show (zero - omega (z x)) * coefA (z x) = -(omega (z x)) * coefA (z x)
  rw [zero_sub_eq_neg]

theorem stored_transX (z0 z1 z2 : Vec Ideal S1x256x512 .f32) :
    k0_pay23 (k0_pay2 (F := Ideal) z0) (k0_pay3 z1) (k0_pay12 z2) (k0_pay13 z2) (Scalar.ofBits .f32 0x3F800000#32)
      = fun x => transX (z0 x) (z1 x) (z2 x) := by
  refine (map3_plane (fun a b p => trDiag p * (a * one) + ((zero - omega p) * coefB p) * (b * one)) z0 z1 z2 _ _).trans ?_
  funext x
  show trDiag (z2 x) * (z0 x * one) + ((zero - omega (z2 x)) * coefB (z2 x)) * (z1 x * one)
    = trDiag (z2 x) * (z0 x * one) + (-(omega (z2 x)) * coefB (z2 x)) * (z1 x * one)
  rw [zero_sub_eq_neg]

theorem stored_transY (z0 z1 z2 : Vec Ideal S1x256x512 .f32) :
    k0_pay27 (k0_pay17 (k0_pay2 (F := Ideal) z0) (k0_pay3 z1) (k0_pay12 z2) (k0_pay14 z2) (Scalar.ofBits .f32 0x3F800000#32))
      = fun x => transY (z0 x) (z1 x) (z2 x) :=
  map3_plane (fun a b p => transY a b p) z0 z1 z2 _ _

/-! ## The output block's index under a stored plane -/

/-- The block function at the index that position `x` of stored plane `k` has in the output block: entry `k` of the
    motion of the twist at position `x` of the three input planes. -/
theorem block_at_plane (x0 : Vec Ideal S3x256x512 .f32) (k : Nat)
    (inb : ∀ a, (![k, 0, 0] : Fin 3 → Nat) a + S1x256x512.size a ≤ S16x256x512.size a) (x : S1x256x512.Idx) :
    block x0 ((Rect.unit (s := S16x256x512) ![k, 0, 0] S1x256x512.size inb).emb x)
      = entry k (View.ld x0 r0_0 x) (View.ld x0 r0_1 x) (View.ld x0 r0_2 x) := by
  obtain ⟨a, q, l, rfl⟩ : ∃ (a : Fin 1) (q : Fin 256) (l : Fin 512), x = ix3 a q l := ⟨x 0, x 1, x 2, eq_ix3 x⟩
  obtain rfl : a = 0 := Subsingleton.elim _ _
  have hk : (((Rect.unit (s := S16x256x512) ![k, 0, 0] S1x256x512.size inb).emb (ix3 (0 : Fin 1) q l)) 0).val = k := by
    show k + 1 * 0 = k; omega
  have h0 : ix3 (0 : Fin 3) (((Rect.unit (s := S16x256x512) ![k, 0, 0] S1x256x512.size inb).emb (ix3 (0 : Fin 1) q l)) 1)
      (((Rect.unit (s := S16x256x512) ![k, 0, 0] S1x256x512.size inb).emb (ix3 (0 : Fin 1) q l)) 2) = r0_0.idx (ix3 (0 : Fin 1) q l) :=
    funext fun a => Fin.ext (by
      match a with
      | ⟨0, _⟩ => show (0 : Nat) = 0 + 1 * 0; omega
      | ⟨1, _⟩ => show 0 + 1 * q.val = 0 + 1 * q.val; rfl
      | ⟨2, _⟩ => show 0 + 1 * l.val = 0 + 1 * l.val; rfl)
  have h1 : ix3 (1 : Fin 3) (((Rect.unit (s := S16x256x512) ![k, 0, 0] S1x256x512.size inb).emb (ix3 (0 : Fin 1) q l)) 1)
      (((Rect.unit (s := S16x256x512) ![k, 0, 0] S1x256x512.size inb).emb (ix3 (0 : Fin 1) q l)) 2) = r0_1.idx (ix3 (0 : Fin 1) q l) :=
    funext fun a => Fin.ext (by
      match a with
      | ⟨0, _⟩ => show (1 : Nat) = 1 + 1 * 0; omega
      | ⟨1, _⟩ => show 0 + 1 * q.val = 0 + 1 * q.val; rfl
      | ⟨2, _⟩ => show 0 + 1 * l.val = 0 + 1 * l.val; rfl)
  have h2 : ix3 (2 : Fin 3) (((Rect.unit (s := S16x256x512) ![k, 0, 0] S1x256x512.size inb).emb (ix3 (0 : Fin 1) q l)) 1)
      (((Rect.unit (s := S16x256x512) ![k, 0, 0] S1x256x512.size inb).emb (ix3 (0 : Fin 1) q l)) 2) = r0_2.idx (ix3 (0 : Fin 1) q l) :=
    funext fun a => Fin.ext (by
      match a with
      | ⟨0, _⟩ => show (2 : Nat) = 2 + 1 * 0; omega
      | ⟨1, _⟩ => show 0 + 1 * q.val = 0 + 1 * q.val; rfl
      | ⟨2, _⟩ => show 0 + 1 * l.val = 0 + 1 * l.val; rfl)
  exact congr (congr (congr (congrArg entry hk) (congrArg x0 h0)) (congrArg x0 h1)) (congrArg x0 h2)

/-! ## The block a grid point leaves -/

/-- The sixteen stores of the body leave `block` of the input block: each stored plane restricts `block` to its
    rectangle, and the sixteen rectangles cover the output block. -/
theorem out_block (x0 : Vec Ideal S3x256x512 .f32) : out0_1 (F := Ideal) x0 = block x0 := by
  funext y
  unfold out0_1
  refine View.canon_apply_of_pieces (block x0) _ ?_ y (cover0_1 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact (block_at_plane x0 15 inb_S16x256x512_S1x256x512_15_0_0 x).symm
  · intro x; exact (block_at_plane x0 14 inb_S16x256x512_S1x256x512_14_0_0 x).symm
  · intro x; exact (block_at_plane x0 13 inb_S16x256x512_S1x256x512_13_0_0 x).symm
  · intro x; exact (block_at_plane x0 12 inb_S16x256x512_S1x256x512_12_0_0 x).symm
  · intro x; exact (block_at_plane x0 11 inb_S16x256x512_S1x256x512_11_0_0 x).symm
  · intro x; exact (block_at_plane x0 10 inb_S16x256x512_S1x256x512_10_0_0 x).symm
  · intro x; exact (block_at_plane x0 9 inb_S16x256x512_S1x256x512_9_0_0 x).symm
  · intro x; exact (block_at_plane x0 8 inb_S16x256x512_S1x256x512_8_0_0 x).symm
  · intro x; exact (congrFun (stored_transY _ _ _) x).trans (block_at_plane x0 7 inb_S16x256x512_S1x256x512_7_0_0 x).symm
  · intro x; exact (block_at_plane x0 6 inb_S16x256x512_S1x256x512_6_0_0 x).symm
  · intro x; exact (congrFun (stored_rotDiag' _) x).trans (block_at_plane x0 5 inb_S16x256x512_S1x256x512_5_0_0 x).symm
  · intro x; exact (congrFun (stored_rotLow _) x).trans (block_at_plane x0 4 inb_S16x256x512_S1x256x512_4_0_0 x).symm
  · intro x; exact (congrFun (stored_transX _ _ _) x).trans (block_at_plane x0 3 inb_S16x256x512_S1x256x512_3_0_0 x).symm
  · intro x; exact (block_at_plane x0 2 inb_S16x256x512_S1x256x512_2_0_0 x).symm
  · intro x; exact (congrFun (stored_rotUp _) x).trans (block_at_plane x0 1 inb_S16x256x512_S1x256x512_1_0_0 x).symm
  · intro x; exact (congrFun (stored_rotDiag _) x).trans (block_at_plane x0 0 inb_S16x256x512_S1x256x512_0_0_0 x).symm

end Cert.KernelIdeal.Block

end
-- ==== Proof.KernelArray.lean ====
/-
  The kernel's output array after the whole grid.

  The grid has 32 points. Point `t` reads rows 256·t … 256·t + 255 (of 8192) of the three input planes and writes
  the same rows of the sixteen output planes, every plane and lane whole. Its output block is `block` of its input
  block (the per-point file), so it is the restriction to those rows of ONE function of the whole input array,
  `planes`: plane `p` at (r, l) is entry `p` of the motion of the twist at (r, l) of the three input planes. The 32
  row ranges cover the 8192 rows, hence after the last point the output array is `planes` of the input array.
-/
import proofs.«110850_j66649302499845_2_alg».proof.Proof.KernelBlock
import Idealize.ShloMosaic.Lib.Pipeline.Value
import Idealize.ShloMosaic.Lib.ValueIdx

noncomputable section

namespace Cert.KernelIdeal.Array

open Cert.KernelIdeal Cert.KernelIdeal.Gen Cert.KernelIdeal.Block Idealize.ShloMosaic Idealize.ShloMosaic.TcCoe
open Idealize.ShloMosaic.ValueIdx Cert.Se3Exp Idealize.SL.Sem
open Idealize.ShloMosaic.Pipeline (Dat Cfg Window)

variable (m : (ℓ : Loc nD τ sig) → Buf (Elt Ideal) ℓ)

/-- The two windows' index maps, decided over the 32 points: both blocks are whole on the plane and lane axes and sit
    at block-row `t`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- Row `q` of point `t`'s blocks is row 256·t + q of the arrays. -/
theorem row_lt (t : Fin cfg0.N) (q : Fin 256) : 256 * t.val + q.val < 8192 := by
  have h : t.val < 32 := lt_of_lt_of_eq t.isLt N_0
  omega

/-- The input block at point `t`, read at (k, q, l): the input array as the region finds it, at (k, 256·t + q, l). -/
theorem iblk_apply (c : Dev nD) (t : Fin cfg0.N) (k : Fin 3) (q : Fin 256) (l : Fin 512) :
    iblk m c 0 t (ix3 k q l) = V m c main_v1 (ix3 k ⟨256 * t.val + q.val, row_lt t q⟩ l) := by
  show V m c main_v1 (((cfg0.win 0).blk t).view.emb (ix3 k q l)) = _
  refine congrArg (V m c main_v1) (funext fun a => Fin.ext ?_)
  obtain ⟨e0, e1, e2, -, -, -⟩ := idx_facts t
  match a with
  | ⟨0, _⟩ => show win0_0.index t (0 : Fin 3) * 3 + 1 * k.val = k.val; omega
  | ⟨1, _⟩ => show win0_0.index t (1 : Fin 3) * 256 + 1 * q.val = 256 * t.val + q.val; omega
  | ⟨2, _⟩ => show win0_0.index t (2 : Fin 3) * 512 + 1 * l.val = l.val; omega

/-- What point `t` writes back is its block of `planes` of the input array. -/
theorem flushed_eq (c : Dev nD) (t : Fin cfg0.N) :
    (dats m 0 c).flushed 1 t = ((cfg0.win 1).blk t).view.read (Elt Ideal) (planes (V m c main_v1)) := by
  show (cfg0.win 1).cut (grid0.coords t) ((dats m 0 c).after 1 t) = _
  rw [after0_1, out_block]
  funext j
  obtain ⟨p, q, l, rfl⟩ : ∃ (p : Fin 16) (q : Fin 256) (l : Fin 512), j = ix3 p q l := ⟨j 0, j 1, j 2, eq_ix3 j⟩
  have hemb : ((cfg0.win 1).blk t).view.emb (ix3 p q l) = ix3 p ⟨256 * t.val + q.val, row_lt t q⟩ l := by
    obtain ⟨-, -, -, e0, e1, e2⟩ := idx_facts t
    funext a; apply Fin.ext
    match a with
    | ⟨0, _⟩ => show win0_1.index t (0 : Fin 3) * 16 + 1 * p.val = p.val; omega
    | ⟨1, _⟩ => show win0_1.index t (1 : Fin 3) * 256 + 1 * q.val = 256 * t.val + q.val; omega
    | ⟨2, _⟩ => show win0_1.index t (2 : Fin 3) * 512 + 1 * l.val = l.val; omega
  show block (iblk m c 0 t) (ix3 p q l) = planes (V m c main_v1) (((cfg0.win 1).blk t).view.emb (ix3 p q l))
  refine Eq.trans ?_ (congrArg (planes (V m c main_v1)) hemb).symm
  exact congr (congr (congrArg (entry p.val) (iblk_apply m c t 0 q l)) (iblk_apply m c t 1 q l)) (iblk_apply m c t 2 q l)

/-- An index of the output array is in point `t`'s block iff each coordinate is in the block's range on its axis. -/
theorem mem_blk (t : Fin cfg0.N) (i : S16x8192x512.Idx) :
    i ∈ ((cfg0.win 1).blk t).view.set ↔ ∀ a : Fin 3, win0_1.index t a * S16x256x512.size a ≤ (i a).val
      ∧ (i a).val < win0_1.index t a * S16x256x512.size a + S16x256x512.size a := by
  show i ∈ ((View.whole main_v2).slice (win0_1.rect t)).set ↔ _
  rw [View.set_slice_whole, Rect.mem_set_unit]
  exact Iff.rfl

/-- Every index of the output array is in the block of the point its row falls in. -/
theorem cover (i : S16x8192x512.Idx) :
    ∃ t : Fin cfg0.N, (cfg0.win 1).flush t = true ∧ i ∈ ((cfg0.win 1).blk t).view.set := by
  have h0 : (i 0).val < 16 := (i 0).isLt
  have h1 : (i 1).val < 8192 := (i 1).isLt
  have h2 : (i 2).val < 512 := (i 2).isLt
  have hN : cfg0.N = 32 := N_0
  have ht : (i 1).val / 256 < cfg0.N := by rw [hN]; omega
  refine ⟨⟨(i 1).val / 256, ht⟩, flush0_1 _, ?_⟩
  rw [mem_blk]
  obtain ⟨-, -, -, e0, e1, e2⟩ := idx_facts ⟨(i 1).val / 256, ht⟩
  have e1' : win0_1.index ⟨(i 1).val / 256, ht⟩ (1 : Fin 3) = (i 1).val / 256 := e1
  intro a
  match a with
  | ⟨0, _⟩ => show win0_1.index ⟨(i 1).val / 256, ht⟩ (0 : Fin 3) * 16 ≤ (i 0).val ∧ (i 0).val < win0_1.index ⟨(i 1).val / 256, ht⟩ (0 : Fin 3) * 16 + 16; omega
  | ⟨1, _⟩ => show win0_1.index ⟨(i 1).val / 256, ht⟩ (1 : Fin 3) * 256 ≤ (i 1).val ∧ (i 1).val < win0_1.index ⟨(i 1).val / 256, ht⟩ (1 : Fin 3) * 256 + 256; omega
  | ⟨2, _⟩ => show win0_1.index ⟨(i 1).val / 256, ht⟩ (2 : Fin 3) * 512 ≤ (i 2).val ∧ (i 2).val < win0_1.index ⟨(i 1).val / 256, ht⟩ (2 : Fin 3) * 512 + 512; omega

/-- The output array after the last point: `planes` of the input array as the region finds it. -/
theorem final (c : Dev nD) : (dats m 0 c).arrAt 1 cfg0.N = planes (V m c main_v1) :=
  (dats m 0 c).arrAt_eq_of_cover 1 _ (fun t _ => flushed_eq m c t) (cover)

end Cert.KernelIdeal.Array

end
-- ==== Proof.KernelLayout.lean ====
/-
  The host's re-layouts around the kernel, read at an index, and the kernel's whole value.

  Before the call the host transposes the [B, 3] input and cuts the B rows into 8192 × 512: component `k` of the twist
  of row `b` lands at (k, b / 512, b % 512). After the call it does the converse to the sixteen planes: it flattens
  8192 × 512 back to B, transposes to [B, 16] and splits 16 into 4 × 4, so entry (r, c) of row `b`'s matrix is plane
  4r + c at (b / 512, b % 512). Both are a transpose (coordinates swapped) between two reshapes (equal row-major
  positions, which is linear arithmetic in the coordinates). Composed with `planes` between them, row `b`'s matrix
  entry (r, c) is entry 4r + c of the motion of row `b`'s twist: the array of motions.
-/
import proofs.«110850_j66649302499845_2_alg».proof.Proof.Gen.KernelIdeal
import proofs.«110850_j66649302499845_2_alg».proof.Proof.Spec
import Idealize.ShloMosaic.Lib.Pipeline.Value
import Idealize.ShloMosaic.Lib.ValueIdx

noncomputable section

namespace Cert.KernelIdeal.Layout

open Cert.KernelIdeal Cert.KernelIdeal.Gen Idealize.ShloMosaic Idealize.ShloMosaic.ValueIdx Cert.Se3Exp

/-- The input as the kernel is given it: transposed, the rows cut into 8192 × 512. -/
def laneDense (uv : S4194304x3.Idx → EReal) : S3x8192x512.Idx → EReal :=
  shapeCast S3x8192x512 (transpose S3x4194304 [1, 0] uv transposes_S4194304x3_S3x4194304_1_0) shapeCasts_S3x4194304_S3x8192x512

/-- The kernel's sixteen planes as the result: flattened to B rows, transposed, 16 split into 4 × 4. -/
def interleaved (o : S16x8192x512.Idx → EReal) : S4194304x4x4.Idx → EReal :=
  shapeCast S4194304x4x4 (transpose S4194304x16 [1, 0] (shapeCast S16x4194304 o shapeCasts_S16x8192x512_S16x4194304)
    transposes_S16x4194304_S4194304x16_1_0) shapeCasts_S4194304x16_S4194304x4x4

theorem flat_lt (q : Fin 8192) (l : Fin 512) : 512 * q.val + l.val < 4194304 := by
  have := q.isLt; have := l.isLt; omega

/-- Position (k, q, l) of the lane-dense input is component `k` of row 512·q + l. -/
theorem laneDense_apply (uv : S4194304x3.Idx → EReal) (k : Fin 3) (q : Fin 8192) (l : Fin 512) :
    laneDense uv (ix3 k q l) = uv (ix2 ⟨512 * q.val + l.val, flat_lt q l⟩ k) := by
  unfold laneDense
  refine (shapeCast_apply (s := S3x4194304) (t := S3x8192x512) _ shapeCasts_S3x4194304_S3x8192x512 (ix3 k q l)
    (ix2 k ⟨512 * q.val + l.val, flat_lt q l⟩) ?_).trans ?_
  · rw [Shape.rowMajor_val_two, Shape.rowMajor_val_three]
    show k.val * 4194304 + (512 * q.val + l.val) = (k.val * 8192 + q.val) * 512 + l.val
    omega
  · exact transpose_apply [1, 0] uv transposes_S4194304x3_S3x4194304_1_0 _ (ix2 ⟨512 * q.val + l.val, flat_lt q l⟩ k)
      (fun a => match a with | ⟨0, _⟩ => rfl | ⟨1, _⟩ => rfl)

theorem entry_lt (r c : Fin 4) : 4 * r.val + c.val < 16 := by
  have := r.isLt; have := c.isLt; omega
theorem row_lt (b : Fin 4194304) : b.val / 512 < 8192 := by
  have := b.isLt; omega
theorem lane_lt (b : Fin 4194304) : b.val % 512 < 512 := by
  omega

/-- Entry (r, c) of row `b` of the result is plane 4r + c at (b / 512, b % 512). -/
theorem interleaved_apply (o : S16x8192x512.Idx → EReal) (b : Fin 4194304) (r c : Fin 4) :
    interleaved o (ix3 b r c) = o (ix3 ⟨4 * r.val + c.val, entry_lt r c⟩ ⟨b.val / 512, row_lt b⟩ ⟨b.val % 512, lane_lt b⟩) := by
  unfold interleaved
  refine (shapeCast_apply (s := S4194304x16) (t := S4194304x4x4) _ shapeCasts_S4194304x16_S4194304x4x4 (ix3 b r c)
    (ix2 b ⟨4 * r.val + c.val, entry_lt r c⟩) ?_).trans ?_
  · rw [Shape.rowMajor_val_two, Shape.rowMajor_val_three]
    show b.val * 16 + (4 * r.val + c.val) = (b.val * 4 + r.val) * 4 + c.val
    omega
  refine (transpose_apply [1, 0] _ transposes_S16x4194304_S4194304x16_1_0 (ix2 b ⟨4 * r.val + c.val, entry_lt r c⟩)
    (ix2 ⟨4 * r.val + c.val, entry_lt r c⟩ b) (fun a => match a with | ⟨0, _⟩ => rfl | ⟨1, _⟩ => rfl)).trans ?_
  refine shapeCast_apply (s := S16x8192x512) (t := S16x4194304) o shapeCasts_S16x8192x512_S16x4194304
    (ix2 ⟨4 * r.val + c.val, entry_lt r c⟩ b) (ix3 ⟨4 * r.val + c.val, entry_lt r c⟩ ⟨b.val / 512, row_lt b⟩ ⟨b.val % 512, lane_lt b⟩) ?_
  rw [Shape.rowMajor_val_two, Shape.rowMajor_val_three]
  show ((4 * r.val + c.val) * 8192 + b.val / 512) * 512 + b.val % 512 = (4 * r.val + c.val) * 4194304 + b.val
  omega

/-- The kernel's whole value: de-interleave, the sixteen planes, re-interleave — the array of motions. -/
theorem value_eq (uv : S4194304x3.Idx → EReal) : interleaved (planes (laneDense uv)) = motions uv := by
  funext i
  obtain ⟨b, r, c, rfl⟩ : ∃ (b : Fin 4194304) (r c : Fin 4), i = ix3 b r c := ⟨i 0, i 1, i 2, eq_ix3 i⟩
  refine (interleaved_apply _ b r c).trans ?_
  have hx : ∀ k : Fin 3, laneDense uv (ix3 k ⟨b.val / 512, row_lt b⟩ ⟨b.val % 512, lane_lt b⟩) = uv (ix2 b k) := fun k =>
    (laneDense_apply uv k _ _).trans (congrArg (fun bb : Fin 4194304 => uv (ix2 bb k))
      (Fin.ext (by show 512 * (b.val / 512) + b.val % 512 = b.val; omega)))
  exact congr (congr (congrArg (entry (4 * r.val + c.val)) (hx 0)) (hx 1)) (hx 2)

end Cert.KernelIdeal.Layout

end
-- ==== Proof.KernelRun.lean ====
/-
  The idealized kernel's run, with its result named.

  @main is: two host operations (transpose, reshape) that lay the input out lane-dense; the kernel's grid; three host
  operations (reshape, transpose, reshape) that lay the sixteen planes out as 4 × 4 matrices. The generated frame run
  ends with the kernel's output array at what the grid's points wrote and every other buffer at what the host
  operations after the grid make of that. Here the pieces are put together: the array the grid finds is the lane-dense
  input; the array it leaves is `planes` of it; the host operations after it re-interleave that; and the whole is the
  array of motions of the input's rows.
-/
import proofs.«110850_j66649302499845_2_alg».proof.Proof.KernelArray
import proofs.«110850_j66649302499845_2_alg».proof.Proof.KernelLayout
import Idealize.ShloMosaic.Lib.StableHlo.Run
import Idealize.ShloMosaic.Lib.Pipeline.Value
import Idealize.ShloMosaic.Lib.ValueIdx

noncomputable section

namespace Cert.KernelIdeal.Run

open Cert.KernelIdeal Cert.KernelIdeal.Gen Cert.KernelIdeal.Block Cert.KernelIdeal.Array Cert.KernelIdeal.Layout
open Idealize.ShloMosaic Idealize.ShloMosaic.TcCoe Idealize.ShloMosaic.ValueIdx Cert.Se3Exp Idealize.SL.Sem Idealize.ShloMosaic.StableHlo
open Idealize.ShloMosaic.Pipeline (Dat Cfg Window)

variable (m : (ℓ : Loc nD τ sig) → Buf (Elt Ideal) ℓ) (ρ : Dev nD → PrngReg)

/-- The array the grid finds: the host's transpose and reshape of the input. -/
theorem V_main_v1 (c : Dev nD) :
    (V m c main_v1 : S3x8192x512.Idx → EReal) = laneDense (m ((c : Thread nD τ).loc main_arg0)) := by
  show StableHlo.after hostOps0 (fun b => m (c, b)) (Proc.devRef .tc main_v1) = _
  after_results
  rfl

/-- The kernel's output array, as the host operations after the grid find it: `planes` of the lane-dense input. -/
theorem out_array (c : Dev nD) :
    Pipeline.withArrays (cfgs 0).spec c (V0 m c) (fun w => (dats m 0 c).arrAt w (cfgs 0).N) (Proc.devRef .tc main_v2)
      = planes (laneDense (m ((c : Thread nD τ).loc main_arg0))) :=
  (Pipeline.withArrays_arr spec0 launch0.win.arr_inj c _ _ 1).trans ((final m c).trans (congrArg planes (V_main_v1 m c)))

/-- The three host operations after the grid, over any contents of the buffers: @main's result is the re-interleaving of
    whatever the kernel's output array holds. -/
theorem tail_of (W : Valuation τ sig (Elt Ideal)) :
    StableHlo.after hostOps1 W (Proc.devRef .tc main_v5) = interleaved (W (Proc.devRef .tc main_v2)) := by
  after_results
  rfl

/-- @main's result after the host operations that follow the grid: the sixteen planes re-interleaved. -/
theorem tail_eq (c : Dev nD) :
    Pipeline.afterTail₀ cfgs (dats m) 0 (V0 m) [hostOps1] c main_v5
      = interleaved (planes (laneDense (m ((c : Thread nD τ).loc main_arg0)))) := by
  unfold Pipeline.afterTail₀
  show StableHlo.after hostOps1 _ (Proc.devRef .tc main_v5) = _
  exact (tail_of _).trans (congrArg interleaved (out_array m c))

/-- Every weakly fair execution of the idealized kernel's @main terminates with its result the array of motions of the
    input's rows, and the input unchanged. -/
theorem run : θ_run defs (onTc (τ := τ) (main (F := Ideal))) ⟨m, fun _ => 0, ρ⟩ (fun r => ∀ c : Dev nD,
      r.2.mem ((c.tc : Thread nD τ).loc main_v5) = motions (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v5 (Pipeline.mem_restRefs_of main_v5 (by decide) (by decide))).trans
        ((tail_eq m c).trans (value_eq _)),
     ((h c).2 main_arg0 (Pipeline.mem_restRefs_of main_arg0 (by decide) (by decide))).trans (W_main_arg0 m (dats m) c)⟩)
    (run_main m ρ)

end Cert.KernelIdeal.Run

end
-- ==== Proof.LibJoinFour.lean ====
/-
  Four pieces joined along an axis, read at an index.

  `jnp.stack` of four arrays lowers to a `concatenate` of four pieces whose extent along the joined axis is one.
  Read at an index, the join is the piece that the index's coordinate on the joined axis names, read at the index
  with that coordinate set to zero and the others kept. Two shapes of it are stated here, over any number of rows
  `N` and any element type, one lemma per piece: four columns [N, 1] joined into [N, 4] along axis 1, and four
  slabs [N, 1, 4] joined into [N, 4, 4] along axis 1. Each is the library's general reading of a concatenation at an
  index (`concatenate_apply_piece`) with the piece, the extents before it and the coordinates spelt out.
-/
import Idealize.ShloMosaic.Lib.Pipeline.Value
import Idealize.ShloMosaic.Lib.ValueIdx

noncomputable section

namespace Cert.JoinFour

open Idealize.ShloMosaic Idealize.ShloMosaic.ValueIdx

variable {α : Type}

/-- Off the joined axis, a column's index (b, 0) and the row's index (b, c) have the same coordinates. -/
theorem col_coords {N : Nat} (b : Fin N) (c : Fin 4) (a : Fin (⟨2, ![N, 1]⟩ : Shape).rank)
    (ha : a.cast (rfl : (⟨2, ![N, 1]⟩ : Shape).rank = (⟨2, ![N, 4]⟩ : Shape).rank) ≠ (1 : Fin 2)) :
    ((ix2 b (0 : Fin 1) : (⟨2, ![N, 1]⟩ : Shape).Idx) a).val = ((ix2 b c : (⟨2, ![N, 4]⟩ : Shape).Idx) (a.cast rfl)).val := by
  match a, ha with
  | ⟨0, _⟩, _ => rfl
  | ⟨1, _⟩, ha => exact absurd rfl ha

/-- Off the joined axis, a slab's index (b, 0, c) and the matrix's index (b, r, c) have the same coordinates. -/
theorem slab_coords {N : Nat} (b : Fin N) (r c : Fin 4) (a : Fin (⟨3, ![N, 1, 4]⟩ : Shape).rank)
    (ha : a.cast (rfl : (⟨3, ![N, 1, 4]⟩ : Shape).rank = (⟨3, ![N, 4, 4]⟩ : Shape).rank) ≠ (1 : Fin 3)) :
    ((ix3 b (0 : Fin 1) c : (⟨3, ![N, 1, 4]⟩ : Shape).Idx) a).val = ((ix3 b r c : (⟨3, ![N, 4, 4]⟩ : Shape).Idx) (a.cast rfl)).val := by
  match a, ha with
  | ⟨0, _⟩, _ => rfl
  | ⟨1, _⟩, ha => exact absurd rfl ha
  | ⟨2, _⟩, _ => rfl

/-- Four columns joined along axis 1 into an [N, 4] array, read at (b, 0): column 0, read at (b, 0). -/
theorem col0_apply {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (b : Fin N) (hk : 0 < 4) :
    concatenate (⟨2, ![N, 4]⟩ : Shape) 1 [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨0, hk⟩) = f0 (ix2 b (0 : Fin 1)) :=
  concatenate_apply_piece (t := ⟨2, ![N, 4]⟩) (1 : Fin 2) [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨0, hk⟩) 0 (by show 0 < 4; omega) ⟨2, ![N, 1]⟩ f0 rfl rfl 0 rfl (ix2 b (0 : Fin 1)) (col_coords b _) rfl

/-- Four columns joined along axis 1 into an [N, 4] array, read at (b, 1): column 1, read at (b, 0). -/
theorem col1_apply {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (b : Fin N) (hk : 1 < 4) :
    concatenate (⟨2, ![N, 4]⟩ : Shape) 1 [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨1, hk⟩) = f1 (ix2 b (0 : Fin 1)) :=
  concatenate_apply_piece (t := ⟨2, ![N, 4]⟩) (1 : Fin 2) [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨1, hk⟩) 1 (by show 1 < 4; omega) ⟨2, ![N, 1]⟩ f1 rfl rfl 1 rfl (ix2 b (0 : Fin 1)) (col_coords b _) rfl

/-- Four columns joined along axis 1 into an [N, 4] array, read at (b, 2): column 2, read at (b, 0). -/
theorem col2_apply {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (b : Fin N) (hk : 2 < 4) :
    concatenate (⟨2, ![N, 4]⟩ : Shape) 1 [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨2, hk⟩) = f2 (ix2 b (0 : Fin 1)) :=
  concatenate_apply_piece (t := ⟨2, ![N, 4]⟩) (1 : Fin 2) [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨2, hk⟩) 2 (by show 2 < 4; omega) ⟨2, ![N, 1]⟩ f2 rfl rfl 2 rfl (ix2 b (0 : Fin 1)) (col_coords b _) rfl

/-- Four columns joined along axis 1 into an [N, 4] array, read at (b, 3): column 3, read at (b, 0). -/
theorem col3_apply {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (b : Fin N) (hk : 3 < 4) :
    concatenate (⟨2, ![N, 4]⟩ : Shape) 1 [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨3, hk⟩) = f3 (ix2 b (0 : Fin 1)) :=
  concatenate_apply_piece (t := ⟨2, ![N, 4]⟩) (1 : Fin 2) [⟨(⟨2, ![N, 1]⟩ : Shape), f0⟩, ⟨(⟨2, ![N, 1]⟩ : Shape), f1⟩, ⟨(⟨2, ![N, 1]⟩ : Shape), f2⟩, ⟨(⟨2, ![N, 1]⟩ : Shape), f3⟩] h (ix2 b ⟨3, hk⟩) 3 (by show 3 < 4; omega) ⟨2, ![N, 1]⟩ f3 rfl rfl 3 rfl (ix2 b (0 : Fin 1)) (col_coords b _) rfl

/-- Four slabs joined along axis 1 into an [N, 4, 4] array, read at (b, 0, c): slab 0, read at (b, 0, c). -/
theorem slab0_apply {N : Nat} (g0 g1 g2 g3 : (⟨3, ![N, 1, 4]⟩ : Shape).Idx → α)
    (h : Shape.Concatenates [(⟨3, ![N, 1, 4]⟩ : Shape), ⟨3, ![N, 1, 4]⟩, ⟨3, ![N, 1, 4]⟩, ⟨3, ![N, 1, 4]⟩] ⟨3, ![N, 4, 4]⟩ 1)
    (b : Fin N) (hk : 0 < 4) (c : Fin 4) :
    concatenate (⟨3, ![N, 4, 4]⟩ : Shape) 1 [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨0, hk⟩ c) = g0 (ix3 b (0 : Fin 1) c) :=
  concatenate_apply_piece (t := ⟨3, ![N, 4, 4]⟩) (1 : Fin 3) [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨0, hk⟩ c) 0 (by show 0 < 4; omega) ⟨3, ![N, 1, 4]⟩ g0 rfl rfl 0 rfl (ix3 b (0 : Fin 1) c) (slab_coords b _ c) rfl

/-- Four slabs joined along axis 1 into an [N, 4, 4] array, read at (b, 1, c): slab 1, read at (b, 0, c). -/
theorem slab1_apply {N : Nat} (g0 g1 g2 g3 : (⟨3, ![N, 1, 4]⟩ : Shape).Idx → α)
    (h : Shape.Concatenates [(⟨3, ![N, 1, 4]⟩ : Shape), ⟨3, ![N, 1, 4]⟩, ⟨3, ![N, 1, 4]⟩, ⟨3, ![N, 1, 4]⟩] ⟨3, ![N, 4, 4]⟩ 1)
    (b : Fin N) (hk : 1 < 4) (c : Fin 4) :
    concatenate (⟨3, ![N, 4, 4]⟩ : Shape) 1 [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨1, hk⟩ c) = g1 (ix3 b (0 : Fin 1) c) :=
  concatenate_apply_piece (t := ⟨3, ![N, 4, 4]⟩) (1 : Fin 3) [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨1, hk⟩ c) 1 (by show 1 < 4; omega) ⟨3, ![N, 1, 4]⟩ g1 rfl rfl 1 rfl (ix3 b (0 : Fin 1) c) (slab_coords b _ c) rfl

/-- Four slabs joined along axis 1 into an [N, 4, 4] array, read at (b, 2, c): slab 2, read at (b, 0, c). -/
theorem slab2_apply {N : Nat} (g0 g1 g2 g3 : (⟨3, ![N, 1, 4]⟩ : Shape).Idx → α)
    (h : Shape.Concatenates [(⟨3, ![N, 1, 4]⟩ : Shape), ⟨3, ![N, 1, 4]⟩, ⟨3, ![N, 1, 4]⟩, ⟨3, ![N, 1, 4]⟩] ⟨3, ![N, 4, 4]⟩ 1)
    (b : Fin N) (hk : 2 < 4) (c : Fin 4) :
    concatenate (⟨3, ![N, 4, 4]⟩ : Shape) 1 [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨2, hk⟩ c) = g2 (ix3 b (0 : Fin 1) c) :=
  concatenate_apply_piece (t := ⟨3, ![N, 4, 4]⟩) (1 : Fin 3) [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨2, hk⟩ c) 2 (by show 2 < 4; omega) ⟨3, ![N, 1, 4]⟩ g2 rfl rfl 2 rfl (ix3 b (0 : Fin 1) c) (slab_coords b _ c) rfl

/-- Four slabs joined along axis 1 into an [N, 4, 4] array, read at (b, 3, c): slab 3, read at (b, 0, c). -/
theorem slab3_apply {N : Nat} (g0 g1 g2 g3 : (⟨3, ![N, 1, 4]⟩ : Shape).Idx → α)
    (h : Shape.Concatenates [(⟨3, ![N, 1, 4]⟩ : Shape), ⟨3, ![N, 1, 4]⟩, ⟨3, ![N, 1, 4]⟩, ⟨3, ![N, 1, 4]⟩] ⟨3, ![N, 4, 4]⟩ 1)
    (b : Fin N) (hk : 3 < 4) (c : Fin 4) :
    concatenate (⟨3, ![N, 4, 4]⟩ : Shape) 1 [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨3, hk⟩ c) = g3 (ix3 b (0 : Fin 1) c) :=
  concatenate_apply_piece (t := ⟨3, ![N, 4, 4]⟩) (1 : Fin 3) [⟨(⟨3, ![N, 1, 4]⟩ : Shape), g0⟩, ⟨(⟨3, ![N, 1, 4]⟩ : Shape), g1⟩, ⟨(⟨3, ![N, 1, 4]⟩ : Shape), g2⟩, ⟨(⟨3, ![N, 1, 4]⟩ : Shape), g3⟩] h (ix3 b ⟨3, hk⟩ c) 3 (by show 3 < 4; omega) ⟨3, ![N, 1, 4]⟩ g3 rfl rfl 3 rfl (ix3 b (0 : Fin 1) c) (slab_coords b _ c) rfl

end Cert.JoinFour

end
-- ==== Proof.RefValue.lean ====
/-
  The reference, read at an index.

  The reference computes, for all rows at once, the seven distinct entries of the motion as vectors over the rows —
  every one a chain of entry-by-entry operations on the three columns of the input, so at row `b` it is the scalar
  function of the same name of row `b`'s components —, then lays them out: four columns joined into a row of the
  matrix (a [B, 4] array), each such array given a unit middle axis, and the four rows joined along it into [B, 4, 4].
  A join along an axis, read at an index, is the piece the index's coordinate on that axis names, read at the
  remaining coordinates; so entry (r, c) of row `b`'s matrix is the vector that was placed at row `r`, column `c`,
  read at `b` — which is entry `4r + c` of the motion.
-/
import proofs.«110850_j66649302499845_2_alg».proof.Proof.Gen.ReferenceIdeal.Read
import proofs.«110850_j66649302499845_2_alg».proof.Proof.Spec
import proofs.«110850_j66649302499845_2_alg».proof.Proof.LibJoinFour
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Se3Exp

/-! ## The three columns of the input, as vectors over the rows -/

/-- Column 2 (the rotation rate) as a vector, at row `b`. -/
theorem col_psi (uv : S4194304x3.Idx → EReal) (b : Fin 4194304) :
    val_main_v1 (F := Ideal) uv (ix1 b) = uv (ix2 b (2 : Fin 3)) := by
  rw [val_main_v1_apply, val_main_v0_apply]
  refine congrArg uv (funext fun a => Fin.ext ?_)
  match a with
  | ⟨0, _⟩ => show b.val / 1 = b.val; omega
  | ⟨1, _⟩ => rfl

/-- Column 0 (the first translation component) as a vector, at row `b`. -/
theorem col_x (uv : S4194304x3.Idx → EReal) (b : Fin 4194304) :
    val_main_v5 (F := Ideal) uv (ix1 b) = uv (ix2 b (0 : Fin 3)) := by
  rw [val_main_v5_apply, val_main_v4_apply]
  refine congrArg uv (funext fun a => Fin.ext ?_)
  match a with
  | ⟨0, _⟩ => show b.val / 1 = b.val; omega
  | ⟨1, _⟩ => rfl

/-- Column 1 (the second translation component) as a vector, at row `b`. -/
theorem col_y (uv : S4194304x3.Idx → EReal) (b : Fin 4194304) :
    val_main_v9 (F := Ideal) uv (ix1 b) = uv (ix2 b (1 : Fin 3)) := by
  rw [val_main_v9_apply, val_main_v8_apply]
  refine congrArg uv (funext fun a => Fin.ext ?_)
  match a with
  | ⟨0, _⟩ => show b.val / 1 = b.val; omega
  | ⟨1, _⟩ => rfl

/-! ## The seven vectors the reference lays out, at a row: entry-by-entry operations all the way down to the columns -/

theorem vec_rotDiag (uv : S4194304x3.Idx → EReal) (i : S4194304.Idx) :
    val_main_v31 (F := Ideal) uv i = rotDiag (val_main_v1 (F := Ideal) uv i) := rfl

theorem vec_rotUp (uv : S4194304x3.Idx → EReal) (i : S4194304.Idx) :
    val_main_v33 (F := Ideal) uv i = rotUp (val_main_v1 (F := Ideal) uv i) := rfl

theorem vec_rotLow (uv : S4194304x3.Idx → EReal) (i : S4194304.Idx) :
    val_main_v34 (F := Ideal) uv i = rotLow (val_main_v1 (F := Ideal) uv i) := rfl

theorem vec_transX (uv : S4194304x3.Idx → EReal) (i : S4194304.Idx) :
    val_main_v43 (F := Ideal) uv i
      = transX (val_main_v5 (F := Ideal) uv i) (val_main_v9 (F := Ideal) uv i) (val_main_v1 (F := Ideal) uv i) := rfl

theorem vec_transY (uv : S4194304x3.Idx → EReal) (i : S4194304.Idx) :
    val_main_v46 (F := Ideal) uv i
      = transY (val_main_v5 (F := Ideal) uv i) (val_main_v9 (F := Ideal) uv i) (val_main_v1 (F := Ideal) uv i) := rfl

theorem vec_zero (i : S4194304.Idx) : val_main_v47 (F := Ideal) i = zero := rfl

theorem vec_one (i : S4194304.Idx) : val_main_v48 (F := Ideal) i = one := rfl

/-! ## The seven vectors at row `b`, of row `b`'s components -/

theorem at_rotDiag (uv : S4194304x3.Idx → EReal) (b : Fin 4194304) :
    val_main_v31 (F := Ideal) uv (ix1 b) = rotDiag (uv (ix2 b (2 : Fin 3))) :=
  (vec_rotDiag uv _).trans (congrArg rotDiag (col_psi uv b))

theorem at_rotUp (uv : S4194304x3.Idx → EReal) (b : Fin 4194304) :
    val_main_v33 (F := Ideal) uv (ix1 b) = rotUp (uv (ix2 b (2 : Fin 3))) :=
  (vec_rotUp uv _).trans (congrArg rotUp (col_psi uv b))

theorem at_rotLow (uv : S4194304x3.Idx → EReal) (b : Fin 4194304) :
    val_main_v34 (F := Ideal) uv (ix1 b) = rotLow (uv (ix2 b (2 : Fin 3))) :=
  (vec_rotLow uv _).trans (congrArg rotLow (col_psi uv b))

theorem at_transX (uv : S4194304x3.Idx → EReal) (b : Fin 4194304) :
    val_main_v43 (F := Ideal) uv (ix1 b) = transX (uv (ix2 b (0 : Fin 3))) (uv (ix2 b (1 : Fin 3))) (uv (ix2 b (2 : Fin 3))) := by
  rw [vec_transX, col_x, col_y, col_psi]

theorem at_transY (uv : S4194304x3.Idx → EReal) (b : Fin 4194304) :
    val_main_v46 (F := Ideal) uv (ix1 b) = transY (uv (ix2 b (0 : Fin 3))) (uv (ix2 b (1 : Fin 3))) (uv (ix2 b (2 : Fin 3))) := by
  rw [vec_transY, col_x, col_y, col_psi]

/-! ## The layout: vectors made columns, columns joined into rows, rows joined into matrices -/

/-- A vector made an [B, 1] column reads, at (b, 0), the vector at `b`. -/
theorem column_idx (b : Fin 4194304) (j : S4194304x1.Idx → S4194304.Idx) (hj : ∀ i, ((j i) 0).val = (i 0).val) :
    j (ix2 b (0 : Fin 1)) = ix1 b :=
  funext fun a => match a with | ⟨0, _⟩ => Fin.ext (hj _)

/-- Row 0 of the matrices: the [B, 4] array joined from its four columns, at (b, c). -/
theorem row0 (uv : S4194304x3.Idx → EReal) (b : Fin 4194304) (c : Fin 4) :
    val_main_v53 (F := Ideal) uv (ix2 b c)
      = entry (4 * 0 + c.val) (uv (ix2 b (0 : Fin 3))) (uv (ix2 b (1 : Fin 3))) (uv (ix2 b (2 : Fin 3))) := by
  unfold val_main_v53
  match c with
  | ⟨0, hc⟩ =>
    refine (Cert.JoinFour.col0_apply (N := 4194304) (val_main_v49 (F := Ideal) uv) (val_main_v50 (F := Ideal) uv) (val_main_v51 (F := Ideal)) (val_main_v52 (F := Ideal) uv) _ b hc).trans ?_
    exact (val_main_v49_apply (F := Ideal) uv (ix2 b (0 : Fin 1))).trans ((congrArg (val_main_v31 (F := Ideal) uv) (column_idx b idx_main_v49 fun _ => rfl)).trans (at_rotDiag uv b))
  | ⟨1, hc⟩ =>
    refine (Cert.JoinFour.col1_apply (N := 4194304) (val_main_v49 (F := Ideal) uv) (val_main_v50 (F := Ideal) uv) (val_main_v51 (F := Ideal)) (val_main_v52 (F := Ideal) uv) _ b hc).trans ?_
    exact (val_main_v50_apply (F := Ideal) uv (ix2 b (0 : Fin 1))).trans ((congrArg (val_main_v33 (F := Ideal) uv) (column_idx b idx_main_v50 fun _ => rfl)).trans (at_rotUp uv b))
  | ⟨2, hc⟩ =>
    refine (Cert.JoinFour.col2_apply (N := 4194304) (val_main_v49 (F := Ideal) uv) (val_main_v50 (F := Ideal) uv) (val_main_v51 (F := Ideal)) (val_main_v52 (F := Ideal) uv) _ b hc).trans ?_
    exact (val_main_v51_apply (F := Ideal) (ix2 b (0 : Fin 1))).trans (vec_zero _)
  | ⟨3, hc⟩ =>
    refine (Cert.JoinFour.col3_apply (N := 4194304) (val_main_v49 (F := Ideal) uv) (val_main_v50 (F := Ideal) uv) (val_main_v51 (F := Ideal)) (val_main_v52 (F := Ideal) uv) _ b hc).trans ?_
    exact (val_main_v52_apply (F := Ideal) uv (ix2 b (0 : Fin 1))).trans ((congrArg (val_main_v43 (F := Ideal) uv) (column_idx b idx_main_v52 fun _ => rfl)).trans (at_transX uv b))

/-- Row 1 of the matrices: the [B, 4] array joined from its four columns, at (b, c). -/
theorem row1 (uv : S4194304x3.Idx → EReal) (b : Fin 4194304) (c : Fin 4) :
    val_main_v58 (F := Ideal) uv (ix2 b c)
      = entry (4 * 1 + c.val) (uv (ix2 b (0 : Fin 3))) (uv (ix2 b (1 : Fin 3))) (uv (ix2 b (2 : Fin 3))) := by
  unfold val_main_v58
  match c with
  | ⟨0, hc⟩ =>
    refine (Cert.JoinFour.col0_apply (N := 4194304) (val_main_v54 (F := Ideal) uv) (val_main_v55 (F := Ideal) uv) (val_main_v56 (F := Ideal)) (val_main_v57 (F := Ideal) uv) _ b hc).trans ?_
    exact (val_main_v54_apply (F := Ideal) uv (ix2 b (0 : Fin 1))).trans ((congrArg (val_main_v34 (F := Ideal) uv) (column_idx b idx_main_v54 fun _ => rfl)).trans (at_rotLow uv b))
  | ⟨1, hc⟩ =>
    refine (Cert.JoinFour.col1_apply (N := 4194304) (val_main_v54 (F := Ideal) uv) (val_main_v55 (F := Ideal) uv) (val_main_v56 (F := Ideal)) (val_main_v57 (F := Ideal) uv) _ b hc).trans ?_
    exact (val_main_v55_apply (F := Ideal) uv (ix2 b (0 : Fin 1))).trans ((congrArg (val_main_v31 (F := Ideal) uv) (column_idx b idx_main_v55 fun _ => rfl)).trans (at_rotDiag uv b))
  | ⟨2, hc⟩ =>
    refine (Cert.JoinFour.col2_apply (N := 4194304) (val_main_v54 (F := Ideal) uv) (val_main_v55 (F := Ideal) uv) (val_main_v56 (F := Ideal)) (val_main_v57 (F := Ideal) uv) _ b hc).trans ?_
    exact (val_main_v56_apply (F := Ideal) (ix2 b (0 : Fin 1))).trans (vec_zero _)
  | ⟨3, hc⟩ =>
    refine (Cert.JoinFour.col3_apply (N := 4194304) (val_main_v54 (F := Ideal) uv) (val_main_v55 (F := Ideal) uv) (val_main_v56 (F := Ideal)) (val_main_v57 (F := Ideal) uv) _ b hc).trans ?_
    exact (val_main_v57_apply (F := Ideal) uv (ix2 b (0 : Fin 1))).trans ((congrArg (val_main_v46 (F := Ideal) uv) (column_idx b idx_main_v57 fun _ => rfl)).trans (at_transY uv b))

/-- Row 2 of the matrices: the [B, 4] array joined from its four columns, at (b, c). -/
theorem row2 (uv : S4194304x3.Idx → EReal) (b : Fin 4194304) (c : Fin 4) :
    val_main_v63 (F := Ideal) (ix2 b c)
      = entry (4 * 2 + c.val) (uv (ix2 b (0 : Fin 3))) (uv (ix2 b (1 : Fin 3))) (uv (ix2 b (2 : Fin 3))) := by
  unfold val_main_v63
  match c with
  | ⟨0, hc⟩ =>
    refine (Cert.JoinFour.col0_apply (N := 4194304) (val_main_v59 (F := Ideal)) (val_main_v60 (F := Ideal)) (val_main_v61 (F := Ideal)) (val_main_v62 (F := Ideal)) _ b hc).trans ?_
    exact (val_main_v59_apply (F := Ideal) (ix2 b (0 : Fin 1))).trans (vec_zero _)
  | ⟨1, hc⟩ =>
    refine (Cert.JoinFour.col1_apply (N := 4194304) (val_main_v59 (F := Ideal)) (val_main_v60 (F := Ideal)) (val_main_v61 (F := Ideal)) (val_main_v62 (F := Ideal)) _ b hc).trans ?_
    exact (val_main_v60_apply (F := Ideal) (ix2 b (0 : Fin 1))).trans (vec_zero _)
  | ⟨2, hc⟩ =>
    refine (Cert.JoinFour.col2_apply (N := 4194304) (val_main_v59 (F := Ideal)) (val_main_v60 (F := Ideal)) (val_main_v61 (F := Ideal)) (val_main_v62 (F := Ideal)) _ b hc).trans ?_
    exact (val_main_v61_apply (F := Ideal) (ix2 b (0 : Fin 1))).trans (vec_one _)
  | ⟨3, hc⟩ =>
    refine (Cert.JoinFour.col3_apply (N := 4194304) (val_main_v59 (F := Ideal)) (val_main_v60 (F := Ideal)) (val_main_v61 (F := Ideal)) (val_main_v62 (F := Ideal)) _ b hc).trans ?_
    exact (val_main_v62_apply (F := Ideal) (ix2 b (0 : Fin 1))).trans (vec_zero _)

/-- Row 3 of the matrices: the [B, 4] array joined from its four columns, at (b, c). -/
theorem row3 (uv : S4194304x3.Idx → EReal) (b : Fin 4194304) (c : Fin 4) :
    val_main_v68 (F := Ideal) (ix2 b c)
      = entry (4 * 3 + c.val) (uv (ix2 b (0 : Fin 3))) (uv (ix2 b (1 : Fin 3))) (uv (ix2 b (2 : Fin 3))) := by
  unfold val_main_v68
  match c with
  | ⟨0, hc⟩ =>
    refine (Cert.JoinFour.col0_apply (N := 4194304) (val_main_v64 (F := Ideal)) (val_main_v65 (F := Ideal)) (val_main_v66 (F := Ideal)) (val_main_v67 (F := Ideal)) _ b hc).trans ?_
    exact (val_main_v64_apply (F := Ideal) (ix2 b (0 : Fin 1))).trans (vec_zero _)
  | ⟨1, hc⟩ =>
    refine (Cert.JoinFour.col1_apply (N := 4194304) (val_main_v64 (F := Ideal)) (val_main_v65 (F := Ideal)) (val_main_v66 (F := Ideal)) (val_main_v67 (F := Ideal)) _ b hc).trans ?_
    exact (val_main_v65_apply (F := Ideal) (ix2 b (0 : Fin 1))).trans (vec_zero _)
  | ⟨2, hc⟩ =>
    refine (Cert.JoinFour.col2_apply (N := 4194304) (val_main_v64 (F := Ideal)) (val_main_v65 (F := Ideal)) (val_main_v66 (F := Ideal)) (val_main_v67 (F := Ideal)) _ b hc).trans ?_
    exact (val_main_v66_apply (F := Ideal) (ix2 b (0 : Fin 1))).trans (vec_zero _)
  | ⟨3, hc⟩ =>
    refine (Cert.JoinFour.col3_apply (N := 4194304) (val_main_v64 (F := Ideal)) (val_main_v65 (F := Ideal)) (val_main_v66 (F := Ideal)) (val_main_v67 (F := Ideal)) _ b hc).trans ?_
    exact (val_main_v67_apply (F := Ideal) (ix2 b (0 : Fin 1))).trans (vec_one _)

/-- A row given a unit middle axis reads, at (b, 0, c), the row at (b, c). -/
theorem slab_idx (b : Fin 4194304) (c : Fin 4) (j : S4194304x1x4.Idx → S4194304x4.Idx)
    (h0 : ∀ i, ((j i) 0).val = (i 0).val) (h1 : ∀ i, ((j i) 1).val = (i 2).val) :
    j (ix3 b (0 : Fin 1) c) = ix2 b c :=
  funext fun a => match a with | ⟨0, _⟩ => Fin.ext (h0 _) | ⟨1, _⟩ => Fin.ext (h1 _)

/-- The reference's result is the array of motions. -/
theorem result_eq (uv : S4194304x3.Idx → EReal) : val_main_v73 (F := Ideal) uv = motions uv := by
  funext i
  obtain ⟨b, r, c, rfl⟩ : ∃ (b : Fin 4194304) (r c : Fin 4), i = ix3 b r c := ⟨i 0, i 1, i 2, eq_ix3 i⟩
  unfold val_main_v73
  match r with
  | ⟨0, hr⟩ =>
    refine (Cert.JoinFour.slab0_apply (N := 4194304) (val_main_v69 (F := Ideal) uv) (val_main_v70 (F := Ideal) uv) (val_main_v71 (F := Ideal)) (val_main_v72 (F := Ideal)) _ b hr c).trans ?_
    exact (val_main_v69_apply (F := Ideal) uv (ix3 b (0 : Fin 1) c)).trans ((congrArg (val_main_v53 (F := Ideal) uv) (slab_idx b c idx_main_v69 (fun _ => rfl) (fun _ => rfl))).trans (row0 uv b c))
  | ⟨1, hr⟩ =>
    refine (Cert.JoinFour.slab1_apply (N := 4194304) (val_main_v69 (F := Ideal) uv) (val_main_v70 (F := Ideal) uv) (val_main_v71 (F := Ideal)) (val_main_v72 (F := Ideal)) _ b hr c).trans ?_
    exact (val_main_v70_apply (F := Ideal) uv (ix3 b (0 : Fin 1) c)).trans ((congrArg (val_main_v58 (F := Ideal) uv) (slab_idx b c idx_main_v70 (fun _ => rfl) (fun _ => rfl))).trans (row1 uv b c))
  | ⟨2, hr⟩ =>
    refine (Cert.JoinFour.slab2_apply (N := 4194304) (val_main_v69 (F := Ideal) uv) (val_main_v70 (F := Ideal) uv) (val_main_v71 (F := Ideal)) (val_main_v72 (F := Ideal)) _ b hr c).trans ?_
    exact (val_main_v71_apply (F := Ideal) (ix3 b (0 : Fin 1) c)).trans ((congrArg (val_main_v63 (F := Ideal)) (slab_idx b c idx_main_v71 (fun _ => rfl) (fun _ => rfl))).trans (row2 uv b c))
  | ⟨3, hr⟩ =>
    refine (Cert.JoinFour.slab3_apply (N := 4194304) (val_main_v69 (F := Ideal) uv) (val_main_v70 (F := Ideal) uv) (val_main_v71 (F := Ideal)) (val_main_v72 (F := Ideal)) _ b hr c).trans ?_
    exact (val_main_v72_apply (F := Ideal) (ix3 b (0 : Fin 1) c)).trans ((congrArg (val_main_v68 (F := Ideal)) (slab_idx b c idx_main_v72 (fun _ => rfl) (fun _ => rfl))).trans (row3 uv b c))

end Cert.ReferenceIdeal.RefValue

end
-- ==== Proof.lean ====
/-
  The exponential map of planar rigid motions: a lane-dense kernel against its row-by-row reference.

  Both programs take B = 4194304 twists (x, y, ψ), one per row of a [B, 3] array, and return for each the 4 × 4
  matrix of the rigid motion it generates (Proof/Spec.lean writes the sixteen entries out). The reference computes the
  seven distinct entries as vectors over the rows and stacks them into [B, 4, 4]. The kernel first lays the three
  components out as 8192 × 512 planes, computes sixteen output planes of the same extent 256 rows at a time, and lays
  them back out as matrices. On the extended reals the two agree entry by entry:
    · every arithmetic step is the same operation on both sides — a kernel's divide, square root, sine and cosine
      and the host's are one function each at the ideal values, and the float words 0.1, 1e-5, 1 and 0 are the same
      words on both sides, so they are never evaluated;
    · the one difference in spelling is the negation of ω, `0 − ω` in the kernel and `−ω` in the reference, and
      `0 − a = −a` for every extended real `a`, the infinities included;
    · everything else is layout: transposes and reshapes around the kernel (Proof/KernelLayout.lean), the blocks of
      the grid tiling the rows (Proof/KernelArray.lean), and joins of unit-extent pieces in the reference
      (Proof/RefValue.lean).
  No step uses that an input is finite; the three frames are the generated ones (the reference's is its generated run
  with the result dropped), and the idealization rewrote nothing, so `preserves` has nothing to state.
-/
import proofs.«110850_j66649302499845_2_alg».proof.Defs
import proofs.«110850_j66649302499845_2_alg».proof.Proof.Gen.Kernel
import proofs.«110850_j66649302499845_2_alg».proof.Proof.Gen.Kernel.Skeleton
import proofs.«110850_j66649302499845_2_alg».proof.Proof.Gen.Kernel.Launch
import proofs.«110850_j66649302499845_2_alg».proof.Proof.Gen.Kernel.Points
import proofs.«110850_j66649302499845_2_alg».proof.Proof.Gen.Kernel.Frame
import proofs.«110850_j66649302499845_2_alg».proof.Proof.Gen.KernelIdeal
import proofs.«110850_j66649302499845_2_alg».proof.Proof.Gen.KernelIdeal.Skeleton
import proofs.«110850_j66649302499845_2_alg».proof.Proof.Gen.KernelIdeal.Launch
import proofs.«110850_j66649302499845_2_alg».proof.Proof.Gen.KernelIdeal.Points
import proofs.«110850_j66649302499845_2_alg».proof.Proof.Gen.KernelIdeal.Frame
import proofs.«110850_j66649302499845_2_alg».proof.Proof.Gen.ReferenceIdeal
import proofs.«110850_j66649302499845_2_alg».proof.Proof.Gen.Pre_finite_inputs
import proofs.«110850_j66649302499845_2_alg».proof.Proof.Gen.ReferenceIdeal.Run
import proofs.«110850_j66649302499845_2_alg».proof.Proof.Gen.ReferenceIdeal.Read
import proofs.«110850_j66649302499845_2_alg».proof.Proof.KernelRun
import proofs.«110850_j66649302499845_2_alg».proof.Proof.RefValue
import Idealize.ShloMosaic.Adequacy
import Idealize.ShloMosaic.Init

noncomputable section

namespace Cert.Proof

open Idealize.ShloMosaic Idealize.ShloMosaic.TcCoe Idealize.SL.Sem Cert.Se3Exp

/-- The word-level kernel runs and leaves its input as it found it: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Run from memories that agree on the input, both idealized programs end with the array of motions of the
    input's rows: the kernel by its run read through the grid and the host re-layouts, the reference by its run read
    operation by operation. -/
theorem algebraic : Cert.algebraic_KernelIdeal_ReferenceIdeal := by
  intro m ρ m' ρ' _ hagree
  refine ⟨fun c => motions (m ((c.tc : Thread Cert.KernelIdeal.nD Cert.KernelIdeal.τ).loc Cert.KernelIdeal.main_arg0)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
